-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S3 : Shape := ⟨1, ![3]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S4096x2048 .f32) (main_arg1 : FVec F S3 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  main_v8
-- ==== Kernel.lean ====
abbrev S4096x2048 : Shape := ⟨2, ![4096, 2048]⟩
abbrev S3 : Shape := ⟨1, ![3]⟩
abbrev S16x16 : Shape := ⟨2, ![16, 16]⟩
abbrev S1 : Shape := ⟨1, ![1]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S256x1x256x1 : Shape := ⟨4, ![256, 1, 256, 1]⟩
abbrev S256x16x256x16 : Shape := ⟨4, ![256, 16, 256, 16]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 68
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S3, .f32⟩
  | .hbm, ⟨2, _⟩ => ⟨S16x16, .f32⟩
  | .hbm, ⟨3, _⟩ => ⟨S16x16, .f32⟩
  | .hbm, ⟨4, _⟩ => ⟨S16x16, .f32⟩
  | .hbm, ⟨5, _⟩ => ⟨S1, .f32⟩
  | .hbm, ⟨6, _⟩ => ⟨S_, .f32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S16x16, .i1⟩
  | .hbm, ⟨13, _⟩ => ⟨S16x16, .f32⟩
  | .hbm, ⟨14, _⟩ => ⟨S_, .f32⟩
  | .hbm, ⟨15, _⟩ => ⟨S16x16, .f32⟩
  | .hbm, ⟨16, _⟩ => ⟨S16x16, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S1, .f32⟩
  | .hbm, ⟨22, _⟩ => ⟨S_, .f32⟩
  | .hbm, ⟨23, _⟩ => ⟨S16x16, .i32⟩
  | .hbm, ⟨24, _⟩ => ⟨S16x16, .i32⟩
  | .hbm, ⟨25, _⟩ => ⟨S_, .i32⟩
  | .hbm, ⟨26, _⟩ => ⟨S16x16, .i32⟩
  | .hbm, ⟨27, _⟩ => ⟨S16x16, .i32⟩
  | .hbm, ⟨28, _⟩ => ⟨S16x16, .i1⟩
  | .hbm, ⟨29, _⟩ => ⟨S16x16, .f32⟩
  | .hbm, ⟨30, _⟩ => ⟨S_, .f32⟩
  | .hbm, ⟨31, _⟩ => ⟨S16x16, .f32⟩
  | .hbm, ⟨32, _⟩ => ⟨S16x16, .f32⟩
  | .hbm, ⟨33, _⟩ => ⟨S_, .f32⟩
  | .hbm, ⟨34, _⟩ => ⟨S16x16, .f32⟩
  | .hbm, ⟨35, _⟩ => ⟨S16x16, .f32⟩
  | .hbm, ⟨36, _⟩ => ⟨S16x16, .f32⟩
  | .hbm, ⟨37, _⟩ => ⟨S1, .f32⟩
  | .hbm, ⟨38, _⟩ => ⟨S_, .f32⟩
  | .hbm, ⟨39, _⟩ => ⟨S16x16, .i32⟩
  | .hbm, ⟨40, _⟩ => ⟨S16x16, .i32⟩
  | .hbm, ⟨41, _⟩ => ⟨S_, .i32⟩
  | .hbm, ⟨42, _⟩ => ⟨S16x16, .i32⟩
  | .hbm, ⟨43, _⟩ => ⟨S16x16, .i32⟩
  | .hbm, ⟨44, _⟩ => ⟨S16x16, .i1⟩
  | .hbm, ⟨45, _⟩ => ⟨S16x16, .f32⟩
  | .hbm, ⟨46, _⟩ => ⟨S_, .f32⟩
  | .hbm, ⟨47, _⟩ => ⟨S16x16, .f32⟩
  | .hbm, ⟨48, _⟩ => ⟨S16x16, .f32⟩
  | .hbm, ⟨49, _⟩ => ⟨S_, .f32⟩
  | .hbm, ⟨50, _⟩ => ⟨S16x16, .f32⟩
  | .hbm, ⟨51, _⟩ => ⟨S16x16, .f32⟩
  | .hbm, ⟨52, _⟩ => ⟨S16x16, .f32⟩
  | .hbm, ⟨53, _⟩ => ⟨S16x1x16x1, .f32⟩
  | .hbm, ⟨54, _⟩ => ⟨S1x16x1x16, .f32⟩
  | .hbm, ⟨55, _⟩ => ⟨S16x16x16x16, .f32⟩
  | .hbm, ⟨56, _⟩ => ⟨S16x16x16x16, .f32⟩
  | .hbm, ⟨57, _⟩ => ⟨S16x16x16x16, .f32⟩
  | .hbm, ⟨58, _⟩ => ⟨S256x256, .f32⟩
  | .hbm, ⟨59, _⟩ => ⟨S256x1x256x1, .f32⟩
  | .hbm, ⟨60, _⟩ => ⟨S1x16x1x16, .f32⟩
  | .hbm, ⟨61, _⟩ => ⟨S256x16x256x16, .f32⟩
  | .hbm, ⟨62, _⟩ => ⟨S256x16x256x16, .f32⟩
  | .hbm, ⟨63, _⟩ => ⟨S256x16x256x16, .f32⟩
  | .hbm, ⟨64, _⟩ => ⟨S4096x4096, .f32⟩
  | .hbm, ⟨65, _⟩ => ⟨S4096x4096, .bf16⟩
  | .hbm, ⟨66, _⟩ => ⟨S4096x2048, .bf16⟩
  | .hbm, ⟨67, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v45 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S3_S1_0 : S3.Slices ![0] S1
  shapeCasts_S1_S_ : S1.ShapeCasts S_
  bcast_S_S16x16 : S_.BroadcastsInDim S16x16 (![] : Fin 0 → Fin S16x16.rank)
  slices_S3_S1_1 : S3.Slices ![1] S1
  slices_S3_S1_2 : S3.Slices ![2] S1
  bcast_S16x16_S16x1x16x1_0_2 : S16x16.BroadcastsInDim S16x1x16x1 (![0, 2] : Fin 2 → Fin S16x1x16x1.rank)
  bcast_S16x16_S1x16x1x16_1_3 : S16x16.BroadcastsInDim S1x16x1x16 (![1, 3] : Fin 2 → Fin S1x16x1x16.rank)
  bcast_S16x1x16x1_S16x16x16x16_0_1_2_3 : S16x1x16x1.BroadcastsInDim S16x16x16x16 (![0, 1, 2, 3] : Fin 4 → Fin S16x16x16x16.rank)
  bcast_S1x16x1x16_S16x16x16x16_0_1_2_3 : S1x16x1x16.BroadcastsInDim S16x16x16x16 (![0, 1, 2, 3] : Fin 4 → Fin S16x16x16x16.rank)
  shapeCasts_S16x16x16x16_S256x256 : S16x16x16x16.ShapeCasts S256x256
  bcast_S256x256_S256x1x256x1_0_2 : S256x256.BroadcastsInDim S256x1x256x1 (![0, 2] : Fin 2 → Fin S256x1x256x1.rank)
  bcast_S256x1x256x1_S256x16x256x16_0_1_2_3 : S256x1x256x1.BroadcastsInDim S256x16x256x16 (![0, 1, 2, 3] : Fin 4 → Fin S256x16x256x16.rank)
  bcast_S1x16x1x16_S256x16x256x16_0_1_2_3 : S1x16x1x16.BroadcastsInDim S256x16x256x16 (![0, 1, 2, 3] : Fin 4 → Fin S256x16x256x16.rank)
  shapeCasts_S256x16x256x16_S4096x4096 : S256x16x256x16.ShapeCasts S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .bf16 = 32 ∨ (Rect.block (s := S4096x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x2048.size a
  hwx0_1 : ∀ i : grid0.Coords, EltTy.bits .bf16 = 32 ∨ (Rect.block (s := S4096x2048) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x2048.size a
  hwx0_2 : ∀ i : grid0.Coords, EltTy.bits .f32 = 32 ∨ (Rect.block (s := S4096x2048) S1024x1024.size (cc0_transform_2 i) (hinb0_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v47) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S3 : Shape := ⟨1, ![3]⟩
abbrev S16x16 : Shape := ⟨2, ![16, 16]⟩
abbrev S1 : Shape := ⟨1, ![1]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S256x1x256x1 : Shape := ⟨4, ![256, 1, 256, 1]⟩
abbrev S256x16x256x16 : Shape := ⟨4, ![256, 16, 256, 16]⟩
abbrev S4096x4096 : Shape := ⟨2, ![4096, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S3, .f32⟩
  | .hbm, ⟨2, _⟩ => ⟨S16x16, .f32⟩
  | .hbm, ⟨3, _⟩ => ⟨S16x16, .f32⟩
  | .hbm, ⟨4, _⟩ => ⟨S16x16, .f32⟩
  | .hbm, ⟨5, _⟩ => ⟨S1, .f32⟩
  | .hbm, ⟨6, _⟩ => ⟨S_, .f32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S16x16, .i1⟩
  | .hbm, ⟨13, _⟩ => ⟨S16x16, .f32⟩
  | .hbm, ⟨14, _⟩ => ⟨S_, .f32⟩
  | .hbm, ⟨15, _⟩ => ⟨S16x16, .f32⟩
  | .hbm, ⟨16, _⟩ => ⟨S16x16, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S1, .f32⟩
  | .hbm, ⟨22, _⟩ => ⟨S_, .f32⟩
  | .hbm, ⟨23, _⟩ => ⟨S16x16, .i32⟩
  | .hbm, ⟨24, _⟩ => ⟨S16x16, .i32⟩
  | .hbm, ⟨25, _⟩ => ⟨S_, .i32⟩
  | .hbm, ⟨26, _⟩ => ⟨S16x16, .i32⟩
  | .hbm, ⟨27, _⟩ => ⟨S16x16, .i32⟩
  | .hbm, ⟨28, _⟩ => ⟨S16x16, .i1⟩
  | .hbm, ⟨29, _⟩ => ⟨S16x16, .f32⟩
  | .hbm, ⟨30, _⟩ => ⟨S_, .f32⟩
  | .hbm, ⟨31, _⟩ => ⟨S16x16, .f32⟩
  | .hbm, ⟨32, _⟩ => ⟨S16x16, .f32⟩
  | .hbm, ⟨33, _⟩ => ⟨S_, .f32⟩
  | .hbm, ⟨34, _⟩ => ⟨S16x16, .f32⟩
  | .hbm, ⟨35, _⟩ => ⟨S16x16, .f32⟩
  | .hbm, ⟨36, _⟩ => ⟨S16x16, .f32⟩
  | .hbm, ⟨37, _⟩ => ⟨S1, .f32⟩
  | .hbm, ⟨38, _⟩ => ⟨S_, .f32⟩
  | .hbm, ⟨39, _⟩ => ⟨S16x16, .i32⟩
  | .hbm, ⟨40, _⟩ => ⟨S16x16, .i32⟩
  | .hbm, ⟨41, _⟩ => ⟨S_, .i32⟩
  | .hbm, ⟨42, _⟩ => ⟨S16x16, .i32⟩
  | .hbm, ⟨43, _⟩ => ⟨S16x16, .i32⟩
  | .hbm, ⟨44, _⟩ => ⟨S16x16, .i1⟩
  | .hbm, ⟨45, _⟩ => ⟨S16x16, .f32⟩
  | .hbm, ⟨46, _⟩ => ⟨S_, .f32⟩
  | .hbm, ⟨47, _⟩ => ⟨S16x16, .f32⟩
  | .hbm, ⟨48, _⟩ => ⟨S16x16, .f32⟩
  | .hbm, ⟨49, _⟩ => ⟨S_, .f32⟩
  | .hbm, ⟨50, _⟩ => ⟨S16x16, .f32⟩
  | .hbm, ⟨51, _⟩ => ⟨S16x16, .f32⟩
  | .hbm, ⟨52, _⟩ => ⟨S16x16, .f32⟩
  | .hbm, ⟨53, _⟩ => ⟨S16x1x16x1, .f32⟩
  | .hbm, ⟨54, _⟩ => ⟨S1x16x1x16, .f32⟩
  | .hbm, ⟨55, _⟩ => ⟨S16x16x16x16, .f32⟩
  | .hbm, ⟨56, _⟩ => ⟨S16x16x16x16, .f32⟩
  | .hbm, ⟨57, _⟩ => ⟨S16x16x16x16, .f32⟩
  | .hbm, ⟨58, _⟩ => ⟨S256x256, .f32⟩
  | .hbm, ⟨59, _⟩ => ⟨S256x1x256x1, .f32⟩
  | .hbm, ⟨60, _⟩ => ⟨S1x16x1x16, .f32⟩
  | .hbm, ⟨61, _⟩ => ⟨S256x16x256x16, .f32⟩
  | .hbm, ⟨62, _⟩ => ⟨S256x16x256x16, .f32⟩
  | .hbm, ⟨63, _⟩ => ⟨S256x16x256x16, .f32⟩
  | .hbm, ⟨64, _⟩ => ⟨S4096x4096, .f32⟩
  | .hbm, ⟨65, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v45 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  slices_S3_S1_0 : S3.Slices ![0] S1
  shapeCasts_S1_S_ : S1.ShapeCasts S_
  bcast_S_S16x16 : S_.BroadcastsInDim S16x16 (![] : Fin 0 → Fin S16x16.rank)
  slices_S3_S1_1 : S3.Slices ![1] S1
  slices_S3_S1_2 : S3.Slices ![2] S1
  bcast_S16x16_S16x1x16x1_0_2 : S16x16.BroadcastsInDim S16x1x16x1 (![0, 2] : Fin 2 → Fin S16x1x16x1.rank)
  bcast_S16x16_S1x16x1x16_1_3 : S16x16.BroadcastsInDim S1x16x1x16 (![1, 3] : Fin 2 → Fin S1x16x1x16.rank)
  bcast_S16x1x16x1_S16x16x16x16_0_1_2_3 : S16x1x16x1.BroadcastsInDim S16x16x16x16 (![0, 1, 2, 3] : Fin 4 → Fin S16x16x16x16.rank)
  bcast_S1x16x1x16_S16x16x16x16_0_1_2_3 : S1x16x1x16.BroadcastsInDim S16x16x16x16 (![0, 1, 2, 3] : Fin 4 → Fin S16x16x16x16.rank)
  shapeCasts_S16x16x16x16_S256x256 : S16x16x16x16.ShapeCasts S256x256
  bcast_S256x256_S256x1x256x1_0_2 : S256x256.BroadcastsInDim S256x1x256x1 (![0, 2] : Fin 2 → Fin S256x1x256x1.rank)
  bcast_S256x1x256x1_S256x16x256x16_0_1_2_3 : S256x1x256x1.BroadcastsInDim S256x16x256x16 (![0, 1, 2, 3] : Fin 4 → Fin S256x16x256x16.rank)
  bcast_S1x16x1x16_S256x16x256x16_0_1_2_3 : S1x16x1x16.BroadcastsInDim S256x16x256x16 (![0, 1, 2, 3] : Fin 4 → Fin S256x16x256x16.rank)
  shapeCasts_S256x16x256x16_S4096x4096 : S256x16x256x16.ShapeCasts S4096x4096
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.KernelPieces.lean ====
/-
  What one grid point's body leaves behind, as values.

  The body of the kernel keeps a 1024 × 1024 accumulator in a scratch buffer. At a point whose third grid coordinate is 0
  it first stores the zero block there, then adds to what it reads back the product of its two input blocks; at a point
  whose third coordinate is 1 it adds the product of its input blocks to what the point before left, and copies the new
  accumulator to the output block. Each of these is one covering store, so what a buffer holds afterwards is that store's
  payload, with every load read through: the accumulator step `k0_pay2 acc x0 x1` (acc plus the product of x0 with x1
  into a zero accumulator) over the zero block `k0_pay1` or over what was there.
-/
import proofs.«121863_j39900246180085_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a point with third coordinate 0 the scratch ends at the accumulator step over the zero block. -/
theorem scratch_A (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec F S1024x2048 .bf16) (x1 : Vec F S2048x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz,
    View.ld_unit_zero (S := S2048x1024) hz]

/-- At a point with third coordinate 1 the output block ends at the accumulator step over what the scratch held. -/
theorem out_B (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x2048 .bf16) (x1 : Vec F S2048x1024 .bf16) (xs : Vec F S1024x1024 .f32) :
    out0_B_2 c i a3 h3 a4 h4 a5 h5 a6 h6 hc0 hc1 x0 x1 xs = k0_pay2 xs x0 x1 := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S1024x2048) hz,
    View.ld_unit_zero (S := S2048x1024) hz, View.ld_unit_zero (S := S1024x1024) hz]

end Cert.KernelIdeal.Pieces

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.StepValue.lean ====
/-
  The accumulator step, entry by entry, on the extended reals.

  One step of the kernel adds to a 1024 × 1024 accumulator the product of a 1024 × 2048 block with a 2048 × 1024 block,
  computed into a zero accumulator. On the extended reals entry (p, q) of the result is the accumulator's entry plus the
  sum over k of x0 (p, k) · x1 (k, q); the block the first step starts from is zero everywhere.
-/
import proofs.«121863_j39900246180085_1_alg».proof.Proof.Gen.KernelIdeal.Skeleton
import proofs.«121863_j39900246180085_1_alg».proof.Proof.LibAffine
import Idealize.ShloMosaic.Lib.ValueIdx
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx

/-- The dimension record of the body's product: the left block's columns against the right block's rows. -/
abbrev D : DotDims S1024x2048 S2048x1024 S1024x1024 := dot_S1024x2048_S2048x1024_S1024x1024_1_0_0_1_n_n

theorem contr_rank : D.contr.rank = 1 := rfl
theorem contr_size : D.contr.size ⟨0, by rw [contr_rank]; omega⟩ = 2048 := rfl

theorem lhs0 (j : S1024x1024.Idx) (k : D.contr.Idx) : (D.lhsIdx j k 0).val = (j 0).val := by
  simp [DotDims.lhsIdx, D, dot_S1024x2048_S2048x1024_S1024x1024_1_0_0_1_n_n]; rfl
theorem lhs1 (j : S1024x1024.Idx) (k : D.contr.Idx) : (D.lhsIdx j k 1).val = (k ⟨0, by rw [contr_rank]; omega⟩).val := by
  simp [DotDims.lhsIdx, D, dot_S1024x2048_S2048x1024_S1024x1024_1_0_0_1_n_n]; rfl
theorem rhs0 (j : S1024x1024.Idx) (k : D.contr.Idx) : (D.rhsIdx j k 0).val = (k ⟨0, by rw [contr_rank]; omega⟩).val := by
  simp [DotDims.rhsIdx, D, dot_S1024x2048_S2048x1024_S1024x1024_1_0_0_1_n_n]; rfl
theorem rhs1 (j : S1024x1024.Idx) (k : D.contr.Idx) : (D.rhsIdx j k 1).val = (j 1).val := by
  simp [DotDims.rhsIdx, D, dot_S1024x2048_S2048x1024_S1024x1024_1_0_0_1_n_n]; rfl

/-- The block the first step starts from is zero at every entry. -/
theorem zero_ix2 (p q : Fin 1024) : k0_pay1 (F := Ideal) (ix2 p q) = 0 := by
  unfold k0_pay1
  simp only [shapeCast_self]
  exact Ideal.ofBits_zero_f32

/-- One step at entry (p, q): the accumulator's entry plus the sum over k of x0 (p, k) · x1 (k, q). -/
theorem step_ix2 (acc : Vec Ideal S1024x1024 .f32) (x0 : Vec Ideal S1024x2048 .bf16) (x1 : Vec Ideal S2048x1024 .bf16)
    (p q : Fin 1024) :
    k0_pay2 acc x0 x1 (ix2 p q) = acc (ix2 p q) + ∑ k : Fin 2048, x0 (ix2 p k) * x1 (ix2 k q) := by
  unfold k0_pay2
  simp only [shapeCast_self]
  rw [addf_apply]
  exact congrArg (acc (ix2 p q) + ·)
    (Cert.LibAffine.coreDot_ix2 D contr_rank contr_size lhs0 lhs1 rhs0 rhs1 none x0 x1 p q)

end Cert.KernelIdeal.Step

end
-- ==== Proof.LibMatProd.lean ====
/-
  General lemmas: the product of two matrices over the extended reals as one function read at an index.

  For an [a, k] array L and a [k, n] array R, `mm L R` is the [a, n] array whose entry (p, j) is the sum over q of
  L (p, q) · R (q, j).

  * `mm`, `mm_ix2`: the product and its entry;
  * `mm_congr`: entry (p, j) reads only row p of the left operand and column j of the right one, so a block of rows
    of the product is the product of the block of rows;
  * `hostDot_eq`: the host's plain product, whose dimension record contracts the left operand's columns against the
    right operand's rows, is `mm`;
  * `coreDot_eq`: a matrix-unit product into the zero accumulator, under the same record facts, is `mm`.
  Addition and multiplication on the extended reals are total, so none of this needs finiteness. Nothing here
  mentions a program: the extents are variables and the dimension records are hypotheses.
-/
import proofs.«121863_j39900246180085_1_alg».proof.Proof.LibAffine

noncomputable section

namespace Cert.LibMatProd

open Idealize.ShloMosaic Idealize.ShloMosaic.ValueIdx

variable {a k n : ℕ}

/-- The product of an [a, k] array by a [k, n] array: entry (p, j) is the sum over q of L (p, q) · R (q, j). -/
def mm (L : FVec Ideal ⟨2, ![a, k]⟩ .f32) (R : FVec Ideal ⟨2, ![k, n]⟩ .f32) : FVec Ideal ⟨2, ![a, n]⟩ .f32 :=
  fun i => ∑ q : Fin k, L (ix2 (i 0) q) * R (ix2 q (i 1))

theorem mm_ix2 (L : FVec Ideal ⟨2, ![a, k]⟩ .f32) (R : FVec Ideal ⟨2, ![k, n]⟩ .f32) (p : Fin a) (j : Fin n) :
    mm L R (ix2 p j) = ∑ q : Fin k, L (ix2 p q) * R (ix2 q j) := rfl

/-- Entry (p, j) of the product reads only row p of the left operand and column j of the right one. -/
theorem mm_congr {a' : ℕ} (L : FVec Ideal ⟨2, ![a, k]⟩ .f32) (R : FVec Ideal ⟨2, ![k, n]⟩ .f32)
    (L' : FVec Ideal ⟨2, ![a', k]⟩ .f32) (R' : FVec Ideal ⟨2, ![k, n]⟩ .f32) (p : Fin a) (p' : Fin a') (j : Fin n)
    (hl : ∀ q : Fin k, L (ix2 p q) = L' (ix2 p' q)) (hr : ∀ q : Fin k, R (ix2 q j) = R' (ix2 q j)) :
    mm L R (ix2 p j) = mm L' R' (ix2 p' j) := by
  rw [mm_ix2, mm_ix2]
  exact Finset.sum_congr rfl fun q _ => by rw [hl q, hr q]

/-- The host's plain product of an [a, k] by a [k, n] array is `mm`. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = mm L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1, mm_ix2]

/-- A matrix-unit product of an [a, k] by a [k, n] array into the zero accumulator is `mm`. -/
theorem coreDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = mm L R := by
  funext i
  obtain ⟨p, j, rfl⟩ : ∃ (p : Fin a) (j : Fin n), i = ix2 p j := ⟨i 0, i 1, eq_ix2 i⟩
  rw [Cert.LibAffine.coreDot_ix2 D hr hs hl0 hl1 hr0 hr1, mm_ix2]

end Cert.LibMatProd

end
-- ==== Proof.LibConcat2.lean ====
/-
  General lemmas: two rank-2 arrays joined along one axis, read at an index written with `ix2`.

  * `[a, n]` and `[a, m]` joined along axis 1 into `[a, c]`: column `k < n` of the result is column `k` of the first
    piece, column `n + k` is column `k` of the second;
  * `[n, b]` and `[m, b]` joined along axis 0 into `[c, b]`: row `k < n` is row `k` of the first piece, row `n + k` is
    row `k` of the second;
  * a sum over `Fin c` with `c = n + n` as the sum over the first `n` positions plus the sum over the last `n`.
  Nothing here mentions a program: the extents are variables and the shape relation is a hypothesis.
-/
import Idealize.ShloMosaic.Lib.Pipeline.Value
import Idealize.ShloMosaic.Lib.ValueIdx

noncomputable section

namespace Cert.LibConcat2

open Idealize.ShloMosaic Idealize.ShloMosaic.ValueIdx

variable {α : Type}

/-- Joined along the columns: a column of the first piece. -/
theorem concat_cols_left {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin n) (hk : k.val < c) :
    concatenate (⟨2, ![a, c]⟩ : Shape) 1 [⟨⟨2, ![a, n]⟩, x⟩, ⟨⟨2, ![a, m]⟩, y⟩] h (ix2 p (⟨k.val, hk⟩ : Fin c)) = x (ix2 p k) :=
  concatenate_pair_apply_left (1 : Fin (⟨2, ![a, c]⟩ : Shape).rank) x y h _ rfl (ix2 p k) (fun b => by
    match b with
    | ⟨0, _⟩ => rfl
    | ⟨1, _⟩ => rfl)

/-- Joined along the columns: a column of the second piece sits the first piece's width further on. -/
theorem concat_cols_right {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin m) (hk : n + k.val < c) :
    concatenate (⟨2, ![a, c]⟩ : Shape) 1 [⟨⟨2, ![a, n]⟩, x⟩, ⟨⟨2, ![a, m]⟩, y⟩] h (ix2 p (⟨n + k.val, hk⟩ : Fin c)) = y (ix2 p k) :=
  concatenate_pair_apply_right (1 : Fin (⟨2, ![a, c]⟩ : Shape).rank) x y h _ rfl rfl (ix2 p k) (fun b hb => by
    match b with
    | ⟨0, _⟩ => rfl
    | ⟨1, _⟩ => exact absurd rfl hb) (by show k.val + n = n + k.val; omega)

/-- Joined along the rows: a row of the first piece. -/
theorem concat_rows_top {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin n) (hk : k.val < c) (q : Fin b) :
    concatenate (⟨2, ![c, b]⟩ : Shape) 0 [⟨⟨2, ![n, b]⟩, x⟩, ⟨⟨2, ![m, b]⟩, y⟩] h (ix2 (⟨k.val, hk⟩ : Fin c) q) = x (ix2 k q) :=
  concatenate_pair_apply_left (0 : Fin (⟨2, ![c, b]⟩ : Shape).rank) x y h _ rfl (ix2 k q) (fun d => by
    match d with
    | ⟨0, _⟩ => rfl
    | ⟨1, _⟩ => rfl)

/-- Joined along the rows: a row of the second piece sits the first piece's height further down. -/
theorem concat_rows_bottom {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin m) (hk : n + k.val < c) (q : Fin b) :
    concatenate (⟨2, ![c, b]⟩ : Shape) 0 [⟨⟨2, ![n, b]⟩, x⟩, ⟨⟨2, ![m, b]⟩, y⟩] h (ix2 (⟨n + k.val, hk⟩ : Fin c) q) = y (ix2 k q) :=
  concatenate_pair_apply_right (0 : Fin (⟨2, ![c, b]⟩ : Shape).rank) x y h _ rfl rfl (ix2 k q) (fun d hd => by
    match d with
    | ⟨0, _⟩ => exact absurd rfl hd
    | ⟨1, _⟩ => rfl) (by show k.val + n = n + k.val; omega)

/-- A sum over `c = n + n` positions is the sum over the first `n` plus the sum over the last `n`. -/
theorem sum_two_halves {M : Type*} [AddCommMonoid M] {n c : ℕ} (hc : c = n + n) (f : Fin c → M) :
    ∑ q : Fin c, f q
      = ∑ k : Fin n, f ⟨k.val, by have := k.isLt; omega⟩ + ∑ k : Fin n, f ⟨n + k.val, by have := k.isLt; omega⟩ := by
  subst hc
  rw [Fin.sum_univ_add]
  rfl

end Cert.LibConcat2

end
-- ==== Proof.BlockSum.lean ====
/-
  Two accumulator steps make one entry of the whole product.

  The contraction axis of the 4096 × 4096 by 4096 × 2048 product is cut into two halves of 2048. The first step adds to the
  zero block the product of the left blocks over the first half, the second step adds the product over the second half.
  On the extended reals addition is associative and zero is neutral, so entry (p, q) of what two steps leave is
  0 + ∑ over the first half + ∑ over the second half = the sum over all 4096 positions: entry (r, s) of the whole product,
  when row p of the two left blocks is row r of the matrix (columns k and 2048 + k) and column q of the two right blocks
  is column s of the batch (rows k and 2048 + k). No finiteness is needed.
-/
import proofs.«121863_j39900246180085_1_alg».proof.Proof.StepValue
import proofs.«121863_j39900246180085_1_alg».proof.Proof.LibMatProd
import proofs.«121863_j39900246180085_1_alg».proof.Proof.LibConcat2

noncomputable section

namespace Cert.KernelIdeal.Step

open Cert.KernelIdeal Cert.KernelIdeal.Gen Idealize.ShloMosaic Idealize.ShloMosaic.ValueIdx

theorem two_steps (M : FVec Ideal ⟨2, ![4096, 4096]⟩ .f32) (X : FVec Ideal ⟨2, ![4096, 2048]⟩ .f32)
    (xa xb : Vec Ideal S1024x2048 .bf16) (ya yb : Vec Ideal S2048x1024 .bf16) (p q : Fin 1024) (r : Fin 4096) (s : Fin 2048)
    (hxa : ∀ k : Fin 2048, xa (ix2 p k) = M (ix2 r ⟨k.val, by have := k.isLt; omega⟩))
    (hxb : ∀ k : Fin 2048, xb (ix2 p k) = M (ix2 r ⟨2048 + k.val, by have := k.isLt; omega⟩))
    (hya : ∀ k : Fin 2048, ya (ix2 k q) = X (ix2 ⟨k.val, by have := k.isLt; omega⟩ s))
    (hyb : ∀ k : Fin 2048, yb (ix2 k q) = X (ix2 ⟨2048 + k.val, by have := k.isLt; omega⟩ s)) :
    k0_pay2 (k0_pay2 (k0_pay1 (F := Ideal)) xa ya) xb yb (ix2 p q) = Cert.LibMatProd.mm M X (ix2 r s) := by
  rw [step_ix2, step_ix2, zero_ix2, zero_add, Cert.LibMatProd.mm_ix2,
    Cert.LibConcat2.sum_two_halves (n := 2048) (c := 4096) rfl]
  congr 1
  · exact Finset.sum_congr rfl fun k _ => by rw [hxa k, hya k]
  · exact Finset.sum_congr rfl fun k _ => by rw [hxb k, hyb k]

end Cert.KernelIdeal.Step

end
-- ==== Proof.GateKron.lean ====
/-
  The matrix both programs multiply the batch by, as one function of the three angles.

  A gate is the 16 × 16 matrix  cos θ · I + sin θ · S : the identity I is spelt as the comparison of a row counter with
  a column counter turned into a float, S is a fixed table of entries 0, 1 and −1, and θ is one entry of the angle
  vector made a scalar. The Kronecker product of A [a, a] with B [16, 16] is spelt the way the host spells it: A laid
  along axes 0 and 2 and B along axes 1 and 3 of an [a, 16, a, 16] array, multiplied entry by entry, and the four axes
  merged two by two into [16 a, 16 a]. The 4096 × 4096 matrix is the product of the first two gates' Kronecker product
  with the third gate. Nothing below looks inside these terms: the two programs build the same one, and the rest of
  the certificate only needs its name.
-/
import Idealize.ShloMosaic.PureOps.Ideal
import Idealize.ShloMosaic.Lib.ValueIdx

noncomputable section

namespace Cert.GateKron

open Idealize.ShloMosaic

abbrev A3 : Shape := ⟨1, ![3]⟩
abbrev A1 : Shape := ⟨1, ![1]⟩
abbrev A0 : Shape := ⟨0, ![]⟩
abbrev G16 : Shape := ⟨2, ![16, 16]⟩
abbrev L16 : Shape := ⟨4, ![16, 1, 16, 1]⟩
abbrev R16 : Shape := ⟨4, ![1, 16, 1, 16]⟩
abbrev K16 : Shape := ⟨4, ![16, 16, 16, 16]⟩
abbrev G256 : Shape := ⟨2, ![256, 256]⟩
abbrev L256 : Shape := ⟨4, ![256, 1, 256, 1]⟩
abbrev K256 : Shape := ⟨4, ![256, 16, 256, 16]⟩
abbrev G4096 : Shape := ⟨2, ![4096, 4096]⟩

theorem slice0 : A3.Slices ![0] A1 := by decide
theorem slice1 : A3.Slices ![1] A1 := by decide
theorem slice2 : A3.Slices ![2] A1 := by decide
theorem scalarCast : A1.ShapeCasts A0 := by decide
theorem spread : A0.BroadcastsInDim G16 (![] : Fin 0 → Fin G16.rank) := by decide
theorem layL16 : G16.BroadcastsInDim L16 (![0, 2] : Fin 2 → Fin L16.rank) := by decide
theorem layR16 : G16.BroadcastsInDim R16 (![1, 3] : Fin 2 → Fin R16.rank) := by decide
theorem fillL16 : L16.BroadcastsInDim K16 (![0, 1, 2, 3] : Fin 4 → Fin K16.rank) := by decide
theorem fillR16 : R16.BroadcastsInDim K16 (![0, 1, 2, 3] : Fin 4 → Fin K16.rank) := by decide
theorem merge16 : K16.ShapeCasts G256 := by decide
theorem layL256 : G256.BroadcastsInDim L256 (![0, 2] : Fin 2 → Fin L256.rank) := by decide
theorem fillL256 : L256.BroadcastsInDim K256 (![0, 1, 2, 3] : Fin 4 → Fin K256.rank) := by decide
theorem fillR256 : R16.BroadcastsInDim K256 (![0, 1, 2, 3] : Fin 4 → Fin K256.rank) := by decide
theorem merge256 : K256.ShapeCasts G4096 := by decide

variable {F : FTy → Type} [FloatOps F]

/-- The identity matrix as the host builds it: 1 where the row counter equals the column counter, 0 elsewhere. -/
def eye : FVec F G16 .f32 :=
  uitofp .f32 (cmpi .eq (addi (iotaInDim G16 32 0) (broadcastInDim G16 ![] spread (constantI A0 32 0#32))) (iotaInDim G16 32 1))

/-- The gate cos θ · I + sin θ · S for the angle θ = th (off). -/
def gate (off : Fin 1 → ℕ) (hs : A3.Slices off A1) (S : FVec F G16 .f32) (th : FVec F A3 .f32) : FVec F G16 .f32 :=
  addf (mulf (broadcastInDim G16 ![] spread (Host.cos (shapeCast A0 (extractStridedSlice A1 off th hs) scalarCast))) eye)
    (mulf (broadcastInDim G16 ![] spread (Host.sin (shapeCast A0 (extractStridedSlice A1 off th hs) scalarCast))) S)

/-- The Kronecker product of two 16 × 16 matrices. -/
def kron16 (a b : FVec F G16 .f32) : FVec F G256 .f32 :=
  shapeCast G256 (mulf (broadcastInDim K16 ![0, 1, 2, 3] fillL16 (broadcastInDim L16 ![0, 2] layL16 a))
    (broadcastInDim K16 ![0, 1, 2, 3] fillR16 (broadcastInDim R16 ![1, 3] layR16 b))) merge16

/-- The Kronecker product of a 256 × 256 matrix with a 16 × 16 one. -/
def kron256 (a : FVec F G256 .f32) (b : FVec F G16 .f32) : FVec F G4096 .f32 :=
  shapeCast G4096 (mulf (broadcastInDim K256 ![0, 1, 2, 3] fillL256 (broadcastInDim L256 ![0, 2] layL256 a))
    (broadcastInDim K256 ![0, 1, 2, 3] fillR256 (broadcastInDim R16 ![1, 3] layR16 b))) merge256

/-- The 4096 × 4096 matrix: (gate 0 ⊗ gate 1) ⊗ gate 2, each gate with its own copy of the table S. -/
def gateMatrix (S0 S1 S2 : FVec F G16 .f32) (th : FVec F A3 .f32) : FVec F G4096 .f32 :=
  kron256 (kron16 (gate ![0] slice0 S0 th) (gate ![1] slice1 S1 th)) (gate ![2] slice2 S2 th)

end Cert.GateKron

end
-- ==== Proof.KernelValue.lean ====
/-
  The kernel's result array, as one function of the arguments.

  The grid has 4 × 2 × 2 points; point t has coordinates (t / 4, t / 2 mod 2, t mod 2). At point t the left window reads
  rows 1024 · (t / 4) … of the matrix and columns 2048 · (t mod 2) …, the right window reads rows 2048 · (t mod 2) … of the
  batch and columns 1024 · (t / 2 mod 2) …, and the output window is block (t / 4, t / 2 mod 2) of the result, written back
  at the odd points only. The matrix the region finds is the gate matrix of the angles (the host's rounding to bfloat16 is
  the identity on the extended reals), the batch it finds is the batch argument. An odd point t and the even point t − 1
  before it share their row block and column block and between them cover the whole contraction axis, so what t writes
  back is the block of the whole product (BlockSum.lean); the eight odd points' blocks tile the result.
-/
import proofs.«121863_j39900246180085_1_alg».proof.Proof.Gen.KernelIdeal.Value
import proofs.«121863_j39900246180085_1_alg».proof.Proof.KernelPieces
import proofs.«121863_j39900246180085_1_alg».proof.Proof.BlockSum
import proofs.«121863_j39900246180085_1_alg».proof.Proof.GateKron
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Idealize.ShloMosaic.StableHlo

variable (m : (ℓ : Loc nD τ sig) → Buf (Elt Ideal) ℓ) (ρ : Dev nD → PrngReg)

/-- The table S of one gate, as the program's constant holds it. -/
abbrev tbl (lit : Fin 256 → BitVec 32) : FVec Ideal S16x16 .f32 := fun i => FloatOps.ofBits .f32 (lit (S16x16.rowMajor i))

/-- The matrix the kernel multiplies by: the gate matrix of the angle vector. -/
abbrev matrix (c : Dev nD) : FVec Ideal ⟨2, ![4096, 4096]⟩ .f32 :=
  Cert.GateKron.gateMatrix (tbl lit0) (tbl lit1) (tbl lit2) (m ((c : Thread nD τ).loc main_arg1))

/-- The batch. -/
abbrev batch (c : Dev nD) : FVec Ideal ⟨2, ![4096, 2048]⟩ .f32 := m ((c : Thread nD τ).loc main_arg0)

/-- The result: the whole product of the matrix with the batch. -/
abbrev result (c : Dev nD) : Buf (Elt Ideal) ((c : Thread nD τ).loc main_v49) := Cert.LibMatProd.mm (matrix m c) (batch m c)

/-- The left window's array, as the region finds it, is the gate matrix. -/
theorem entry_left (c : Dev nD) : (V m c main_v47 : S4096x4096.Idx → EReal) = matrix m c := by
  dsimp only [V]
  simp only [hostOps0, hostOps0_1, hostOps0_2, hostOps0_3, List.flatten_cons, List.flatten_nil, List.append_nil, List.cons_append,
    List.nil_append]
  after_results_simp
  rfl

/-- The right window's array, as the region finds it, is the batch. -/
theorem entry_right (c : Dev nD) : (V m c main_v48 : S4096x2048.Idx → EReal) = batch m c := by
  dsimp only [V]
  simp only [hostOps0, hostOps0_1, hostOps0_2, hostOps0_3, List.flatten_cons, List.flatten_nil, List.append_nil, List.cons_append,
    List.nil_append]
  after_results_simp
  rfl

/-- The windows' block indices at point t, decided over the sixteen points. -/
theorem idx_facts : ∀ t : Fin cfg0.N, win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = t.val / 4 ∧ win0_2.index t (1 : Fin 2) = t.val / 2 % 2 :=
  (by decide +kernel : ∀ t : Fin grid0.N, _)

/-- Entry (p, k) of the left block at point t is entry (r, s) of the gate matrix, r and s the block's offsets plus p and k. -/
theorem left_block (c : Dev nD) (t : Fin cfg0.N) (p : Fin 1024) (k : Fin 2048) (r s : Fin 4096)
    (hr : r.val = win0_0.index t (0 : Fin 2) * 1024 + p.val) (hs : s.val = win0_0.index t (1 : Fin 2) * 2048 + k.val) :
    iblk m c 0 t (ix2 p k) = matrix m c (ix2 r s) := by
  show V m c main_v47 (((cfg0.win 0).blk t).view.emb (ix2 p k)) = _
  refine (congrFun (entry_left m c) _).trans (congrArg (matrix m c) (funext fun a => Fin.ext ?_))
  match a with
  | ⟨0, _⟩ => show win0_0.index t (0 : Fin 2) * 1024 + 1 * p.val = r.val; omega
  | ⟨1, _⟩ => show win0_0.index t (1 : Fin 2) * 2048 + 1 * k.val = s.val; omega

/-- Entry (k, q) of the right block at point t is entry (r, s) of the batch. -/
theorem right_block (c : Dev nD) (t : Fin cfg0.N) (k : Fin 2048) (q : Fin 1024) (r : Fin 4096) (s : Fin 2048)
    (hr : r.val = win0_1.index t (0 : Fin 2) * 2048 + k.val) (hs : s.val = win0_1.index t (1 : Fin 2) * 1024 + q.val) :
    iblk m c 1 t (ix2 k q) = batch m c (ix2 r s) := by
  show V m c main_v48 (((cfg0.win 1).blk t).view.emb (ix2 k q)) = _
  refine (congrFun (entry_right m c) _).trans (congrArg (batch m c) (funext fun a => Fin.ext ?_))
  match a with
  | ⟨0, _⟩ => show win0_1.index t (0 : Fin 2) * 2048 + 1 * k.val = r.val; omega
  | ⟨1, _⟩ => show win0_1.index t (1 : Fin 2) * 1024 + 1 * q.val = s.val; omega

/-- An odd point t writes back block (t / 4, t / 2 mod 2) of the whole product: its two steps, the one at t − 1 and its own,
    run over the same rows of the matrix and the same columns of the batch and over the two halves of the contraction axis. -/
theorem flushed_eq (c : Dev nD) (t : Fin cfg0.N) (hf : (cfg0.win 2).flush t = true) :
    (dats m 0 c).flushed 2 t = ((cfg0.win 2).blk t).view.read (Elt Ideal) (result m c) := by
  have hN : cfg0.N = 16 := N_0
  have hlt : t.val < 16 := lt_of_lt_of_eq t.isLt hN
  have h1 : t.val % 2 = 1 := (flush0_2 t).mp hf
  have h0 : ¬ t.val % 2 = 0 := by omega
  have hb : t.val - 1 < cfg0.N := lt_of_lt_of_eq (by omega : t.val - 1 < 16) hN.symm
  have hA := outsAt0_A m c ⟨t.val - 1, hb⟩ (by show (t.val - 1) % 2 = 0; omega) (by show ¬ (t.val - 1) % 2 = 1; omega)
  rw [Value.flushed2_B m c t h0 h1, Pieces.out_B]
  rw [show (outsAt0 m c (t.val - 1) (Nat.lt_of_le_of_lt (Nat.sub_le _ _) t.isLt)).2 = _ from congrArg Prod.snd hA]
  rw [Pieces.scratch_A]
  obtain ⟨e0, e1, e2, e3, e4, e5⟩ := idx_facts t
  obtain ⟨f0, f1, f2, f3, -, -⟩ := idx_facts ⟨t.val - 1, hb⟩
  dsimp only at f0 f1 f2 f3
  funext j
  obtain ⟨p, q, rfl⟩ : ∃ (p q : Fin 1024), j = ix2 p q := ⟨j 0, j 1, eq_ix2 j⟩
  have hp := p.isLt
  have hq := q.isLt
  show k0_pay2 (k0_pay2 (k0_pay1 (F := Ideal)) (iblk m c 0 ⟨t.val - 1, hb⟩) (iblk m c 1 ⟨t.val - 1, hb⟩)) (iblk m c 0 t) (iblk m c 1 t) (ix2 p q)
      = result m c (((cfg0.win 2).blk t).view.emb (ix2 p q))
  refine (Step.two_steps (matrix m c) (batch m c) _ _ _ _ p q ⟨t.val / 4 * 1024 + p.val, by omega⟩ ⟨t.val / 2 % 2 * 1024 + q.val, by omega⟩
    (fun k => left_block m c _ p k _ _ ?_ ?_) (fun k => left_block m c t p k _ _ ?_ ?_)
    (fun k => right_block m c _ k q _ _ ?_ ?_) (fun k => right_block m c t k q _ _ ?_ ?_)).trans ?_
  · show t.val / 4 * 1024 + p.val = win0_0.index ⟨t.val - 1, hb⟩ (0 : Fin 2) * 1024 + p.val; rw [f0]; omega
  · show k.val = win0_0.index ⟨t.val - 1, hb⟩ (1 : Fin 2) * 2048 + k.val; rw [f1]; omega
  · show t.val / 4 * 1024 + p.val = win0_0.index t (0 : Fin 2) * 1024 + p.val; rw [e0]
  · show 2048 + k.val = win0_0.index t (1 : Fin 2) * 2048 + k.val; rw [e1]; omega
  · show k.val = win0_1.index ⟨t.val - 1, hb⟩ (0 : Fin 2) * 2048 + k.val; rw [f2]; omega
  · show t.val / 2 % 2 * 1024 + q.val = win0_1.index ⟨t.val - 1, hb⟩ (1 : Fin 2) * 1024 + q.val; rw [f3]; omega
  · show 2048 + k.val = win0_1.index t (0 : Fin 2) * 2048 + k.val; rw [e2]; omega
  · show t.val / 2 % 2 * 1024 + q.val = win0_1.index t (1 : Fin 2) * 1024 + q.val; rw [e3]
  · refine congrArg (result m c) (funext fun a => Fin.ext ?_)
    match a with
    | ⟨0, _⟩ => show t.val / 4 * 1024 + p.val = win0_2.index t (0 : Fin 2) * 1024 + 1 * p.val; rw [e4]; omega
    | ⟨1, _⟩ => show t.val / 2 % 2 * 1024 + q.val = win0_2.index t (1 : Fin 2) * 1024 + 1 * q.val; rw [e5]; omega

/-- An index of the result is in point t's block iff each coordinate is in the block's range on its axis. -/
theorem mem_blk (t : Fin cfg0.N) (i : S4096x2048.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v49).slice (win0_2.rect t)).set ↔ _
  rw [View.set_slice_whole, Rect.mem_set_unit]
  exact Iff.rfl

/-- Every index of the result lies in the block of an odd point: row block i₀ / 1024, column block i₁ / 1024. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 16 := N_0
  obtain ⟨t, ht⟩ : ∃ t : Fin cfg0.N, t.val = (i 0).val / 1024 * 4 + (i 1).val / 1024 * 2 + 1 := ⟨⟨_, lt_of_lt_of_eq (by omega : (i 0).val / 1024 * 4 + (i 1).val / 1024 * 2 + 1 < 16) hN.symm⟩, rfl⟩
  obtain ⟨-, -, -, -, e4, e5⟩ := idx_facts t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 1024 ≤ (i 1).val ∧ (i 1).val < win0_2.index t (1 : Fin 2) * 1024 + 1024; rw [e5]; omega

/-- The result array after the run is the whole product of the gate matrix with the batch. -/
theorem final (c : Dev nD) : (dats m 0 c).arrAt 2 cfg0.N = result m c :=
  (dats m 0 c).arrAt_eq_of_cover 2 (result m c) (flushed_eq m c) cover

/-- Every weakly fair execution of the kernel's program terminates with the result array at that product and the
    arguments as launched. -/
theorem run : θ_run defs (onTc (τ := τ) (main (F := Ideal))) ⟨m, fun _ => 0, ρ⟩ fun r => ∀ c : Dev nD,
      r.2.mem ((c : Thread nD τ).loc main_v49) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Bridge

end
-- ==== Proof.RefRun.lean ====
/-
  The reference program's run, read back.

  The reference is a straight line of host operations: it builds the three gates from the angles, forms the Kronecker
  product of the first two and then of that with the third (each product an outlined function, whose six operations are
  listed here at the place of the call, over the call's own buffers), and multiplies the batch by the 4096 × 4096 matrix.
  Every weakly fair execution terminates with each buffer at the fold of these operations over the launch contents;
  the last buffer then holds the plain matrix product of the gate matrix (GateKron.lean) of the angle vector with the batch.
-/
import proofs.«121863_j39900246180085_1_alg».proof.Proof.Gen.ReferenceIdeal
import proofs.«121863_j39900246180085_1_alg».proof.Proof.GateKron
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The sixty-four operations, in order: fifty-one that build the three gates, six per Kronecker product, the product
    with the batch. -/
abbrev ops : List (HloOp τ sig (Elt F)) :=
  [ StableHlo.nullary main_cst (fun i => FloatOps.ofBits .f32 (lit0 (S16x16.rowMajor i))),
    StableHlo.nullary main_cst_0 (fun i => FloatOps.ofBits .f32 (lit1 (S16x16.rowMajor i))),
    StableHlo.nullary main_cst_1 (fun i => FloatOps.ofBits .f32 (lit2 (S16x16.rowMajor i))),
    StableHlo.unary main_arg1 main_v0 ((extractStridedSlice S1 ![0] · slices_S3_S1_0) : (⟨S3, .f32⟩ : BufTy).Contents (Elt F) → (⟨S1, .f32⟩ : BufTy).Contents (Elt F)),
    StableHlo.reshape main_v0 main_v1 rfl shapeCasts_S1_S_,
    StableHlo.nullary main_v2 (iotaInDim S16x16 32 0),
    StableHlo.nullary main_v3 (iotaInDim S16x16 32 1),
    StableHlo.nullary main_c (constantI S_ 32 0#32),
    StableHlo.unary main_c main_v4 (broadcastInDim S16x16 ![] bcast_S_S16x16 : (⟨S_, .i32⟩ : BufTy).Contents (Elt F) → (⟨S16x16, .i32⟩ : BufTy).Contents (Elt F)),
    StableHlo.binary main_v2 main_v4 main_v5 (addi : (⟨S16x16, .i32⟩ : BufTy).Contents (Elt F) → (⟨S16x16, .i32⟩ : BufTy).Contents (Elt F) → (⟨S16x16, .i32⟩ : BufTy).Contents (Elt F)),
    StableHlo.binary main_v5 main_v3 main_v6 (cmpi .eq : (⟨S16x16, .i32⟩ : BufTy).Contents (Elt F) → (⟨S16x16, .i32⟩ : BufTy).Contents (Elt F) → (⟨S16x16, .i1⟩ : BufTy).Contents (Elt F)),
    StableHlo.unary main_v6 main_v7 (uitofp .f32 : (⟨S16x16, .i1⟩ : BufTy).Contents (Elt F) → (⟨S16x16, .f32⟩ : BufTy).Contents (Elt F)),
    StableHlo.unary main_v1 main_v8 (Host.cos : (⟨S_, .f32⟩ : BufTy).Contents (Elt F) → (⟨S_, .f32⟩ : BufTy).Contents (Elt F)),
    StableHlo.unary main_v8 main_v9 (broadcastInDim S16x16 ![] bcast_S_S16x16 : (⟨S_, .f32⟩ : BufTy).Contents (Elt F) → (⟨S16x16, .f32⟩ : BufTy).Contents (Elt F)),
    StableHlo.binary main_v9 main_v7 main_v10 (mulf : (⟨S16x16, .f32⟩ : BufTy).Contents (Elt F) → (⟨S16x16, .f32⟩ : BufTy).Contents (Elt F) → (⟨S16x16, .f32⟩ : BufTy).Contents (Elt F)),
    StableHlo.unary main_v1 main_v11 (Host.sin : (⟨S_, .f32⟩ : BufTy).Contents (Elt F) → (⟨S_, .f32⟩ : BufTy).Contents (Elt F)),
    StableHlo.unary main_v11 main_v12 (broadcastInDim S16x16 ![] bcast_S_S16x16 : (⟨S_, .f32⟩ : BufTy).Contents (Elt F) → (⟨S16x16, .f32⟩ : BufTy).Contents (Elt F)),
    StableHlo.binary main_v12 main_cst main_v13 (mulf : (⟨S16x16, .f32⟩ : BufTy).Contents (Elt F) → (⟨S16x16, .f32⟩ : BufTy).Contents (Elt F) → (⟨S16x16, .f32⟩ : BufTy).Contents (Elt F)),
    StableHlo.binary main_v10 main_v13 main_v14 (addf : (⟨S16x16, .f32⟩ : BufTy).Contents (Elt F) → (⟨S16x16, .f32⟩ : BufTy).Contents (Elt F) → (⟨S16x16, .f32⟩ : BufTy).Contents (Elt F)),
    StableHlo.unary main_arg1 main_v15 ((extractStridedSlice S1 ![1] · slices_S3_S1_1) : (⟨S3, .f32⟩ : BufTy).Contents (Elt F) → (⟨S1, .f32⟩ : BufTy).Contents (Elt F)),
    StableHlo.reshape main_v15 main_v16 rfl shapeCasts_S1_S_,
    StableHlo.nullary main_v17 (iotaInDim S16x16 32 0),
    StableHlo.nullary main_v18 (iotaInDim S16x16 32 1),
    StableHlo.nullary main_c_2 (constantI S_ 32 0#32),
    StableHlo.unary main_c_2 main_v19 (broadcastInDim S16x16 ![] bcast_S_S16x16 : (⟨S_, .i32⟩ : BufTy).Contents (Elt F) → (⟨S16x16, .i32⟩ : BufTy).Contents (Elt F)),
    StableHlo.binary main_v17 main_v19 main_v20 (addi : (⟨S16x16, .i32⟩ : BufTy).Contents (Elt F) → (⟨S16x16, .i32⟩ : BufTy).Contents (Elt F) → (⟨S16x16, .i32⟩ : BufTy).Contents (Elt F)),
    StableHlo.binary main_v20 main_v18 main_v21 (cmpi .eq : (⟨S16x16, .i32⟩ : BufTy).Contents (Elt F) → (⟨S16x16, .i32⟩ : BufTy).Contents (Elt F) → (⟨S16x16, .i1⟩ : BufTy).Contents (Elt F)),
    StableHlo.unary main_v21 main_v22 (uitofp .f32 : (⟨S16x16, .i1⟩ : BufTy).Contents (Elt F) → (⟨S16x16, .f32⟩ : BufTy).Contents (Elt F)),
    StableHlo.unary main_v16 main_v23 (Host.cos : (⟨S_, .f32⟩ : BufTy).Contents (Elt F) → (⟨S_, .f32⟩ : BufTy).Contents (Elt F)),
    StableHlo.unary main_v23 main_v24 (broadcastInDim S16x16 ![] bcast_S_S16x16 : (⟨S_, .f32⟩ : BufTy).Contents (Elt F) → (⟨S16x16, .f32⟩ : BufTy).Contents (Elt F)),
    StableHlo.binary main_v24 main_v22 main_v25 (mulf : (⟨S16x16, .f32⟩ : BufTy).Contents (Elt F) → (⟨S16x16, .f32⟩ : BufTy).Contents (Elt F) → (⟨S16x16, .f32⟩ : BufTy).Contents (Elt F)),
    StableHlo.unary main_v16 main_v26 (Host.sin : (⟨S_, .f32⟩ : BufTy).Contents (Elt F) → (⟨S_, .f32⟩ : BufTy).Contents (Elt F)),
    StableHlo.unary main_v26 main_v27 (broadcastInDim S16x16 ![] bcast_S_S16x16 : (⟨S_, .f32⟩ : BufTy).Contents (Elt F) → (⟨S16x16, .f32⟩ : BufTy).Contents (Elt F)),
    StableHlo.binary main_v27 main_cst_0 main_v28 (mulf : (⟨S16x16, .f32⟩ : BufTy).Contents (Elt F) → (⟨S16x16, .f32⟩ : BufTy).Contents (Elt F) → (⟨S16x16, .f32⟩ : BufTy).Contents (Elt F)),
    StableHlo.binary main_v25 main_v28 main_v29 (addf : (⟨S16x16, .f32⟩ : BufTy).Contents (Elt F) → (⟨S16x16, .f32⟩ : BufTy).Contents (Elt F) → (⟨S16x16, .f32⟩ : BufTy).Contents (Elt F)),
    StableHlo.unary main_arg1 main_v30 ((extractStridedSlice S1 ![2] · slices_S3_S1_2) : (⟨S3, .f32⟩ : BufTy).Contents (Elt F) → (⟨S1, .f32⟩ : BufTy).Contents (Elt F)),
    StableHlo.reshape main_v30 main_v31 rfl shapeCasts_S1_S_,
    StableHlo.nullary main_v32 (iotaInDim S16x16 32 0),
    StableHlo.nullary main_v33 (iotaInDim S16x16 32 1),
    StableHlo.nullary main_c_3 (constantI S_ 32 0#32),
    StableHlo.unary main_c_3 main_v34 (broadcastInDim S16x16 ![] bcast_S_S16x16 : (⟨S_, .i32⟩ : BufTy).Contents (Elt F) → (⟨S16x16, .i32⟩ : BufTy).Contents (Elt F)),
    StableHlo.binary main_v32 main_v34 main_v35 (addi : (⟨S16x16, .i32⟩ : BufTy).Contents (Elt F) → (⟨S16x16, .i32⟩ : BufTy).Contents (Elt F) → (⟨S16x16, .i32⟩ : BufTy).Contents (Elt F)),
    StableHlo.binary main_v35 main_v33 main_v36 (cmpi .eq : (⟨S16x16, .i32⟩ : BufTy).Contents (Elt F) → (⟨S16x16, .i32⟩ : BufTy).Contents (Elt F) → (⟨S16x16, .i1⟩ : BufTy).Contents (Elt F)),
    StableHlo.unary main_v36 main_v37 (uitofp .f32 : (⟨S16x16, .i1⟩ : BufTy).Contents (Elt F) → (⟨S16x16, .f32⟩ : BufTy).Contents (Elt F)),
    StableHlo.unary main_v31 main_v38 (Host.cos : (⟨S_, .f32⟩ : BufTy).Contents (Elt F) → (⟨S_, .f32⟩ : BufTy).Contents (Elt F)),
    StableHlo.unary main_v38 main_v39 (broadcastInDim S16x16 ![] bcast_S_S16x16 : (⟨S_, .f32⟩ : BufTy).Contents (Elt F) → (⟨S16x16, .f32⟩ : BufTy).Contents (Elt F)),
    StableHlo.binary main_v39 main_v37 main_v40 (mulf : (⟨S16x16, .f32⟩ : BufTy).Contents (Elt F) → (⟨S16x16, .f32⟩ : BufTy).Contents (Elt F) → (⟨S16x16, .f32⟩ : BufTy).Contents (Elt F)),
    StableHlo.unary main_v31 main_v41 (Host.sin : (⟨S_, .f32⟩ : BufTy).Contents (Elt F) → (⟨S_, .f32⟩ : BufTy).Contents (Elt F)),
    StableHlo.unary main_v41 main_v42 (broadcastInDim S16x16 ![] bcast_S_S16x16 : (⟨S_, .f32⟩ : BufTy).Contents (Elt F) → (⟨S16x16, .f32⟩ : BufTy).Contents (Elt F)),
    StableHlo.binary main_v42 main_cst_1 main_v43 (mulf : (⟨S16x16, .f32⟩ : BufTy).Contents (Elt F) → (⟨S16x16, .f32⟩ : BufTy).Contents (Elt F) → (⟨S16x16, .f32⟩ : BufTy).Contents (Elt F)),
    StableHlo.binary main_v40 main_v43 main_v44 (addf : (⟨S16x16, .f32⟩ : BufTy).Contents (Elt F) → (⟨S16x16, .f32⟩ : BufTy).Contents (Elt F) → (⟨S16x16, .f32⟩ : BufTy).Contents (Elt F)),
    StableHlo.TRef.unary (.of main_v14 : StableHlo.TRef sig ⟨S16x16, .f32⟩) main_call0.v0 (broadcastInDim S16x1x16x1 ![0, 2] bcast_S16x16_S16x1x16x1_0_2),
    StableHlo.TRef.unary (.of main_v29 : StableHlo.TRef sig ⟨S16x16, .f32⟩) main_call0.v1 (broadcastInDim S1x16x1x16 ![1, 3] bcast_S16x16_S1x16x1x16_1_3),
    StableHlo.TRef.unary main_call0.v0 main_call0.v2 (broadcastInDim S16x16x16x16 ![0, 1, 2, 3] bcast_S16x1x16x1_S16x16x16x16_0_1_2_3),
    StableHlo.TRef.unary main_call0.v1 main_call0.v3 (broadcastInDim S16x16x16x16 ![0, 1, 2, 3] bcast_S1x16x1x16_S16x16x16x16_0_1_2_3),
    StableHlo.TRef.binary main_call0.v2 main_call0.v3 main_call0.v4 mulf,
    StableHlo.TRef.reshape main_call0.v4 main_call0.v5 rfl shapeCasts_S16x16x16x16_S256x256,
    StableHlo.TRef.unary (.of main_v45 : StableHlo.TRef sig ⟨S256x256, .f32⟩) main_call1.v0 (broadcastInDim S256x1x256x1 ![0, 2] bcast_S256x256_S256x1x256x1_0_2),
    StableHlo.TRef.unary (.of main_v44 : StableHlo.TRef sig ⟨S16x16, .f32⟩) main_call1.v1 (broadcastInDim S1x16x1x16 ![1, 3] bcast_S16x16_S1x16x1x16_1_3),
    StableHlo.TRef.unary main_call1.v0 main_call1.v2 (broadcastInDim S256x16x256x16 ![0, 1, 2, 3] bcast_S256x1x256x1_S256x16x256x16_0_1_2_3),
    StableHlo.TRef.unary main_call1.v1 main_call1.v3 (broadcastInDim S256x16x256x16 ![0, 1, 2, 3] bcast_S1x16x1x16_S256x16x256x16_0_1_2_3),
    StableHlo.TRef.binary main_call1.v2 main_call1.v3 main_call1.v4 mulf,
    StableHlo.TRef.reshape main_call1.v4 main_call1.v5 rfl shapeCasts_S256x16x256x16_S4096x4096,
    StableHlo.binary main_v46 main_arg0 main_v47 ((fun l r => Host.dotGeneral dot_S4096x4096_S4096x2048_S4096x2048_1_0_0_1_n_n none l r) : (⟨S4096x4096, .f32⟩ : BufTy).Contents (Elt F) → (⟨S4096x2048, .f32⟩ : BufTy).Contents (Elt F) → (⟨S4096x2048, .f32⟩ : BufTy).Contents (Elt F)) ]

set_option maxRecDepth 4096 in
/-- @main is that straight line: the two outlined functions unfolded at their calls, sequencing re-associated. -/
theorem main_eq (c : Dev nD) : main (F := F) c = seq ops := by
  simp only [main, fn_kron.body, fn_kron_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., reshape_bufs_sub .., nullary_bufs_sub ..,
    nullary_bufs_sub .., nullary_bufs_sub .., unary_bufs_sub .., binary_bufs_sub .., binary_bufs_sub .., unary_bufs_sub ..,
    unary_bufs_sub .., unary_bufs_sub .., binary_bufs_sub .., unary_bufs_sub .., unary_bufs_sub .., binary_bufs_sub ..,
    binary_bufs_sub .., unary_bufs_sub .., reshape_bufs_sub .., nullary_bufs_sub .., nullary_bufs_sub .., nullary_bufs_sub ..,
    unary_bufs_sub .., binary_bufs_sub .., binary_bufs_sub .., unary_bufs_sub .., unary_bufs_sub .., unary_bufs_sub ..,
    binary_bufs_sub .., unary_bufs_sub .., unary_bufs_sub .., binary_bufs_sub .., binary_bufs_sub .., unary_bufs_sub ..,
    reshape_bufs_sub .., nullary_bufs_sub .., nullary_bufs_sub .., nullary_bufs_sub .., unary_bufs_sub .., binary_bufs_sub ..,
    binary_bufs_sub .., unary_bufs_sub .., unary_bufs_sub .., unary_bufs_sub .., binary_bufs_sub .., unary_bufs_sub ..,
    unary_bufs_sub .., binary_bufs_sub .., binary_bufs_sub .., unary_bufs_sub .., unary_bufs_sub .., unary_bufs_sub ..,
    unary_bufs_sub .., binary_bufs_sub .., reshape_bufs_sub .., unary_bufs_sub .., unary_bufs_sub .., unary_bufs_sub ..,
    unary_bufs_sub .., binary_bufs_sub .., reshape_bufs_sub .., binary_bufs_sub ..⟩

/-- Every weakly fair execution of @main terminates with each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The table S of one gate, as the program's constant holds it (the word at the row-major position of the entry). -/
abbrev tbl (lit : Fin 256 → BitVec 32) : FVec F S16x16 .f32 := fun i => FloatOps.ofBits .f32 (lit (S16x16.rowMajor i))

/-- Every weakly fair execution of @main terminates with the result at the plain product of the gate matrix of the
    angle vector with the batch, and both arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = Host.dotGeneral dot_S4096x4096_S4096x2048_S4096x2048_1_0_0_1_n_n none
              (Cert.GateKron.gateMatrix (tbl lit0) (tbl lit1) (tbl lit2) (m ((c.tc : Thread nD τ).loc main_arg1)))
              (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v47).trans (by after_results_simp; rfl),
      (h c main_arg0).trans (by after_results_simp),
      (h c main_arg1).trans (by after_results_simp)⟩)
    (run_fold m ρ)

end Cert.ReferenceIdeal.RefRun

end
-- ==== Proof.RefProduct.lean ====
/-
  The reference's product is the whole product, and the two programs' gate tables are one table.

  The reference multiplies the 4096 × 4096 gate matrix by the batch with one plain contraction of the matrix's columns
  against the batch's rows: entry (p, j) is the sum over all 4096 positions k of M (p, k) · X (k, j). Both programs carry the
  table S of each gate as a constant of 256 words; the words are the same.
-/
import proofs.«121863_j39900246180085_1_alg».proof.Proof.Gen.ReferenceIdeal
import proofs.«121863_j39900246180085_1_alg».proof.Proof.Gen.KernelIdeal
import proofs.«121863_j39900246180085_1_alg».proof.Proof.LibMatProd

noncomputable section

namespace Cert.ReferenceIdeal.Product

open Cert.ReferenceIdeal Cert.ReferenceIdeal.Gen Idealize.ShloMosaic Idealize.ShloMosaic.ValueIdx

/-- The dimension record of the reference's product. -/
abbrev D : DotDims S4096x4096 S4096x2048 S4096x2048 := dot_S4096x4096_S4096x2048_S4096x2048_1_0_0_1_n_n

theorem contr_rank : D.contr.rank = 1 := rfl
theorem contr_size : D.contr.size ⟨0, by rw [contr_rank]; omega⟩ = 4096 := rfl

theorem lhs0 (j : S4096x2048.Idx) (k : D.contr.Idx) : (D.lhsIdx j k 0).val = (j 0).val := by
  simp [DotDims.lhsIdx, D, dot_S4096x4096_S4096x2048_S4096x2048_1_0_0_1_n_n]; rfl
theorem lhs1 (j : S4096x2048.Idx) (k : D.contr.Idx) : (D.lhsIdx j k 1).val = (k ⟨0, by rw [contr_rank]; omega⟩).val := by
  simp [DotDims.lhsIdx, D, dot_S4096x4096_S4096x2048_S4096x2048_1_0_0_1_n_n]; rfl
theorem rhs0 (j : S4096x2048.Idx) (k : D.contr.Idx) : (D.rhsIdx j k 0).val = (k ⟨0, by rw [contr_rank]; omega⟩).val := by
  simp [DotDims.rhsIdx, D, dot_S4096x4096_S4096x2048_S4096x2048_1_0_0_1_n_n]; rfl
theorem rhs1 (j : S4096x2048.Idx) (k : D.contr.Idx) : (D.rhsIdx j k 1).val = (j 1).val := by
  simp [DotDims.rhsIdx, D, dot_S4096x4096_S4096x2048_S4096x2048_1_0_0_1_n_n]; rfl

/-- The host's product of the matrix with the batch is the whole product, entry by entry. -/
theorem product_eq (M : FVec Ideal ⟨2, ![4096, 4096]⟩ .f32) (X : FVec Ideal ⟨2, ![4096, 2048]⟩ .f32) :
    Host.dotGeneral D none M X = Cert.LibMatProd.mm M X :=
  Cert.LibMatProd.hostDot_eq D contr_rank contr_size lhs0 lhs1 rhs0 rhs1 none M X

/-- The two programs' constants hold the same words. -/
theorem lit0_eq : Cert.KernelIdeal.lit0 = Cert.ReferenceIdeal.lit0 := by funext i; revert i; decide
theorem lit1_eq : Cert.KernelIdeal.lit1 = Cert.ReferenceIdeal.lit1 := by funext i; revert i; decide
theorem lit2_eq : Cert.KernelIdeal.lit2 = Cert.ReferenceIdeal.lit2 := by funext i; revert i; decide

end Cert.ReferenceIdeal.Product

end
-- ==== Proof.lean ====
/-
  The kernel computes kron(U₀, U₁, U₂) · inputs, and so does the reference.

  Both programs build the same 4096 × 4096 matrix M from the three angles on the host: three 16 × 16 gates
  cos θ · I + sin θ · S and their Kronecker product (GateKron.lean names that term; nothing opens it). The reference
  multiplies M by the batch with one contraction over all 4096 positions. The kernel rounds M and the batch to bfloat16
  (the identity on the extended reals) and tiles the product over a 4 × 2 × 2 grid: the contraction axis is cut in two
  halves, a scratch accumulator is zeroed at the first half, each half adds its block product, and the accumulator is
  copied to the output block at the second half. On the extended reals addition is commutative and associative and zero
  is neutral, so 0 + ∑ over the first half + ∑ over the second half is the sum over the whole axis: the two results agree
  entry by entry, with no use of the inputs' finiteness.

  The frames of the kernel's two readings are the generated ones; the reference's frame is its run with the result
  dropped; the ideal pass rewrote nothing, so there is nothing to preserve.
-/
import proofs.«121863_j39900246180085_1_alg».proof.Defs
import proofs.«121863_j39900246180085_1_alg».proof.Proof.Gen.Kernel
import proofs.«121863_j39900246180085_1_alg».proof.Proof.Gen.Kernel.Skeleton
import proofs.«121863_j39900246180085_1_alg».proof.Proof.Gen.Kernel.Launch
import proofs.«121863_j39900246180085_1_alg».proof.Proof.Gen.Kernel.Points
import proofs.«121863_j39900246180085_1_alg».proof.Proof.Gen.Kernel.Frame
import proofs.«121863_j39900246180085_1_alg».proof.Proof.Gen.KernelIdeal
import proofs.«121863_j39900246180085_1_alg».proof.Proof.Gen.KernelIdeal.Skeleton
import proofs.«121863_j39900246180085_1_alg».proof.Proof.Gen.KernelIdeal.Launch
import proofs.«121863_j39900246180085_1_alg».proof.Proof.Gen.KernelIdeal.Points
import proofs.«121863_j39900246180085_1_alg».proof.Proof.Gen.KernelIdeal.Frame
import proofs.«121863_j39900246180085_1_alg».proof.Proof.Gen.KernelIdeal.Value
import proofs.«121863_j39900246180085_1_alg».proof.Proof.Gen.ReferenceIdeal
import proofs.«121863_j39900246180085_1_alg».proof.Proof.Gen.Pre_finite_inputs
import proofs.«121863_j39900246180085_1_alg».proof.Proof.KernelValue
import proofs.«121863_j39900246180085_1_alg».proof.Proof.RefRun
import proofs.«121863_j39900246180085_1_alg».proof.Proof.RefProduct
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs to completion with its arguments as launched: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the whole product of the gate matrix of the angles with the batch. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.Product.product_eq]
  show Cert.LibMatProd.mm (Cert.GateKron.gateMatrix (Cert.ReferenceIdeal.RefRun.tbl Cert.ReferenceIdeal.lit0)
      (Cert.ReferenceIdeal.RefRun.tbl Cert.ReferenceIdeal.lit1) (Cert.ReferenceIdeal.RefRun.tbl Cert.ReferenceIdeal.lit2) _) _
    = Cert.LibMatProd.mm (Cert.GateKron.gateMatrix (Cert.KernelIdeal.Bridge.tbl Cert.KernelIdeal.lit0)
      (Cert.KernelIdeal.Bridge.tbl Cert.KernelIdeal.lit1) (Cert.KernelIdeal.Bridge.tbl Cert.KernelIdeal.lit2) _) _
  rw [Cert.ReferenceIdeal.Product.lit0_eq, Cert.ReferenceIdeal.Product.lit1_eq, Cert.ReferenceIdeal.Product.lit2_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
